-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S1048576x32 : Shape := ⟨2, ![1048576, 32]⟩
abbrev S16x128 : Shape := ⟨2, ![16, 128]⟩
abbrev S32x128 : Shape := ⟨2, ![32, 128]⟩
abbrev S128 : Shape := ⟨1, ![128]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S1048576x32 : S_.BroadcastsInDim S1048576x32 (![] : Fin 0 → Fin S1048576x32.rank)
  reducesTo_S1048576x32_S_d0_1 : S1048576x32.ReducesTo [0, 1] S_
  bcast_S_S16x128 : S_.BroadcastsInDim S16x128 (![] : Fin 0 → Fin S16x128.rank)
  reducesTo_S16x128_S_d0_1 : S16x128.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S32x128 .f32) (main_arg5 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1048576x16 .f32) (main_arg1 : FVec F S1048576x32 .f32) (main_arg2 : FVec F S1048576x32 .f32) (main_arg3 : FVec F S16x128 .f32) (main_arg4 : FVec F S32x128 .f32) (main_arg5 : FVec F S128 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  let main_v9 : FVec F S1048576x32 .f32 := Host.absf main_arg2
  let main_cst_2 : FVec F S_ .f32 := constant S_ .f32 0x7F800000#32
  let main_v10 : FVec F S1048576x32 .f32 := broadcastInDim S1048576x32 ![] bcast_S_S1048576x32 main_cst_2
  let main_v11 : IVec S1048576x32 1 := cmpf .olt main_v9 main_v10
  let main_c_3 : IVec S_ 1 := constantI S_ 1 1#1
  let main_v12 : IVec S_ 1 := (fun x v => Host.reduce IntOp.andi x v reducesTo_S1048576x32_S_d0_1 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg4 main_arg5 main_v13 main_v16
-- ==== Kernel.lean ====
abbrev S1048576x16 : Shape := ⟨2, ![1048576, 16]⟩
abbrev S1048576x32 : Shape := ⟨2, ![1048576, 32]⟩
abbrev S16x128 : Shape := ⟨2, ![16, 128]⟩
abbrev S32x128 : Shape := ⟨2, ![32, 128]⟩
abbrev S128 : Shape := ⟨1, ![128]⟩
abbrev S262144x128 : Shape := ⟨2, ![262144, 128]⟩
abbrev S4096x16 : Shape := ⟨2, ![4096, 16]⟩
abbrev S4096x32 : Shape := ⟨2, ![4096, 32]⟩
abbrev S1024x128 : Shape := ⟨2, ![1024, 128]⟩
abbrev S4096x128 : Shape := ⟨2, ![4096, 128]⟩
abbrev S1x128 : Shape := ⟨2, ![1, 128]⟩

abbrev nBuf : Space → Nat
  | .hbm => 13
  | .vmem => 13
  | .smem => 0
  | _ => 0

abbrev bufTy : (tb : Table) → Fin (tcTables nBuf tb) → BufTy
  | .hbm, ⟨0, _⟩ => ⟨S1048576x16, .f32⟩
  | .hbm, ⟨1, _⟩ => ⟨S1048576x32, .f32⟩
  | .hbm, ⟨2, _⟩ => ⟨S1048576x32, .f32⟩
  | .hbm, ⟨3, _⟩ => ⟨S16x128, .f32⟩
  | .hbm, ⟨4, _⟩ => ⟨S32x128, .f32⟩
  | .hbm, ⟨5, _⟩ => ⟨S128, .f32⟩
  | .hbm, ⟨6, _⟩ => ⟨S262144x128, .f32⟩
  | .hbm, ⟨7, _⟩ => ⟨S16x128, .bf16⟩
  | .hbm, ⟨8, _⟩ => ⟨S32x128, .bf16⟩
  | .hbm, ⟨9, _⟩ => ⟨S262144x128, .f32⟩
  | .hbm, ⟨10, _⟩ => ⟨S262144x128, .f32⟩
  | .hbm, ⟨11, _⟩ => ⟨S1048576x32, .f32⟩
  | .hbm, ⟨12, _⟩ => ⟨S1048576x32, .f32⟩
  | .local _ .vmem, ⟨0, _⟩ => ⟨S4096x16, .f32⟩
  | .local _ .vmem, ⟨1, _⟩ => ⟨S4096x16, .f32⟩
  | .local _ .vmem, ⟨2, _⟩ => ⟨S4096x32, .f32⟩
  | .local _ .vmem, ⟨3, _⟩ => ⟨S4096x32, .f32⟩
  | .local _ .vmem, ⟨4, _⟩ => ⟨S1024x128, .f32⟩
  | .local _ .vmem, ⟨5, _⟩ => ⟨S1024x128, .f32⟩
  | .local _ .vmem, ⟨6, _⟩ => ⟨S16x128, .bf16⟩
  | .local _ .vmem, ⟨7, _⟩ => ⟨S32x128, .bf16⟩
  | .local _ .vmem, ⟨8, _⟩ => ⟨S128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1048576x32_S262144x128 : S1048576x32.ShapeCasts S262144x128
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  inb_S4096x32_S4096x32_0_0 : ∀ a, (![0, 0] : Fin 2 → Nat) a + S4096x32.size a ≤ S4096x32.size a
  h_S4096x32 : 0 < S4096x32.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  slices_S4096x128_o0_0_S4096x32 : S4096x128.Slices ![0, 0] S4096x32
  slices_S4096x128_o0_32_S4096x32 : S4096x128.Slices ![0, 32] S4096x32
  slices_S4096x128_o0_64_S4096x32 : S4096x128.Slices ![0, 64] S4096x32
  slices_S4096x128_o0_96_S4096x32 : S4096x128.Slices ![0, 96] S4096x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x128_S4096x32 : S1024x128.ShapeCasts S4096x32
  shapeCasts_S4096x32_S1024x128 : S4096x32.ShapeCasts S1024x128
  shapeCasts_S262144x128_S1048576x32 : S262144x128.ShapeCasts S1048576x32
  dot_S4096x16_S16x128_S4096x128_1_0_0_1_n_n_wf : DotDims.WF S4096x16 S16x128 S4096x128 [1] [0] [0] [1] [] []
  dot_S4096x32_S32x128_S4096x128_1_0_0_1_n_n_wf : DotDims.WF S4096x32 S32x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S1048576x16.size a
  hwx0_0 : ∀ i : grid0.Coords, EltTy.bits .f32 = 32 ∨ (Rect.block (s := S1048576x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S1048576x32.size a
  hwx0_1 : ∀ i : grid0.Coords, EltTy.bits .f32 = 32 ∨ (Rect.block (s := S1048576x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S262144x128.size a
  hwx0_2 : ∀ i : grid0.Coords, EltTy.bits .f32 = 32 ∨ (Rect.block (s := S262144x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .bf16 = 32 ∨ (Rect.block (s := S16x128) S16x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S262144x128.size a
  hwx0_6 : ∀ i : grid0.Coords, EltTy.bits .f32 = 32 ∨ (Rect.block (s := S262144x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S262144x128.size a
  hwx0_7 : ∀ i : grid0.Coords, EltTy.bits .f32 = 32 ∨ (Rect.block (s := S262144x128) S1024x128.size (cc0_transform_7 i) (hinb0_7 i)).WholeWords (EltTy.packing .f32)

variable [Facts₀]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x16 : Shape := ⟨2, ![1048576, 16]⟩
abbrev S1048576x32 : Shape := ⟨2, ![1048576, 32]⟩
abbrev S16x128 : Shape := ⟨2, ![16, 128]⟩
abbrev S32x128 : Shape := ⟨2, ![32, 128]⟩
abbrev S128 : Shape := ⟨1, ![128]⟩
abbrev S1048576x128 : Shape := ⟨2, ![1048576, 128]⟩
abbrev S1x128 : Shape := ⟨2, ![1, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S1048576x32, .f32⟩
  | .hbm, ⟨2, _⟩ => ⟨S1048576x32, .f32⟩
  | .hbm, ⟨3, _⟩ => ⟨S16x128, .f32⟩
  | .hbm, ⟨4, _⟩ => ⟨S32x128, .f32⟩
  | .hbm, ⟨5, _⟩ => ⟨S128, .f32⟩
  | .hbm, ⟨6, _⟩ => ⟨S1048576x128, .f32⟩
  | .hbm, ⟨7, _⟩ => ⟨S1048576x128, .f32⟩
  | .hbm, ⟨8, _⟩ => ⟨S1048576x128, .f32⟩
  | .hbm, ⟨9, _⟩ => ⟨S1x128, .f32⟩
  | .hbm, ⟨10, _⟩ => ⟨S1048576x128, .f32⟩
  | .hbm, ⟨11, _⟩ => ⟨S1048576x128, .f32⟩
  | .hbm, ⟨12, _⟩ => ⟨S1048576x32, .f32⟩
  | .hbm, ⟨13, _⟩ => ⟨S1048576x32, .f32⟩
  | .hbm, ⟨14, _⟩ => ⟨S1048576x32, .f32⟩
  | .hbm, ⟨15, _⟩ => ⟨S1048576x32, .f32⟩
  | .hbm, ⟨16, _⟩ => ⟨S1048576x32, .f32⟩
  | .hbm, ⟨17, _⟩ => ⟨S1048576x32, .f32⟩
  | .hbm, ⟨18, _⟩ => ⟨S_, .f32⟩
  | .hbm, ⟨19, _⟩ => ⟨S1048576x32, .f32⟩
  | .hbm, ⟨20, _⟩ => ⟨S1048576x32, .f32⟩
  | .hbm, ⟨21, _⟩ => ⟨S_, .f32⟩
  | .hbm, ⟨22, _⟩ => ⟨S1048576x32, .f32⟩
  | .hbm, ⟨23, _⟩ => ⟨S1048576x32, .f32⟩
  | .hbm, ⟨24, _⟩ => ⟨S1048576x32, .f32⟩
  | .hbm, ⟨25, _⟩ => ⟨S1048576x32, .f32⟩
  | .hbm, ⟨26, _⟩ => ⟨S_, .f32⟩
  | .hbm, ⟨27, _⟩ => ⟨S1048576x32, .f32⟩
  | .hbm, ⟨28, _⟩ => ⟨S1048576x32, .f32⟩
  | .hbm, ⟨29, _⟩ => ⟨S_, .f32⟩
  | .hbm, ⟨30, _⟩ => ⟨S1048576x32, .f32⟩
  | .hbm, ⟨31, _⟩ => ⟨S1048576x32, .f32⟩
  | .hbm, ⟨32, _⟩ => ⟨S1048576x32, .f32⟩
  | .hbm, ⟨33, _⟩ => ⟨S1048576x32, .f32⟩
  | .hbm, ⟨34, _⟩ => ⟨S1048576x32, .f32⟩
  | .hbm, ⟨35, _⟩ => ⟨S_, .f32⟩
  | .hbm, ⟨36, _⟩ => ⟨S1048576x32, .f32⟩
  | .hbm, ⟨37, _⟩ => ⟨S1048576x32, .f32⟩
  | .hbm, ⟨38, _⟩ => ⟨S_, .f32⟩
  | .hbm, ⟨39, _⟩ => ⟨S1048576x32, .f32⟩
  | .hbm, ⟨40, _⟩ => ⟨S1048576x32, .f32⟩
  | .hbm, ⟨41, _⟩ => ⟨S1048576x32, .f32⟩
  | .hbm, ⟨42, _⟩ => ⟨S1048576x32, .f32⟩
  | .hbm, ⟨43, _⟩ => ⟨S1048576x32, .f32⟩
  | .hbm, ⟨44, _⟩ => ⟨S1048576x32, .f32⟩
  | .hbm, ⟨45, _⟩ => ⟨S1048576x32, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  slices_S1048576x128_S1048576x32_0_0 : S1048576x128.Slices ![0, 0] S1048576x32
  slices_S1048576x128_S1048576x32_0_32 : S1048576x128.Slices ![0, 32] S1048576x32
  slices_S1048576x128_S1048576x32_0_64 : S1048576x128.Slices ![0, 64] S1048576x32
  slices_S1048576x128_S1048576x32_0_96 : S1048576x128.Slices ![0, 96] S1048576x32
  bcast_S_S1048576x32 : S_.BroadcastsInDim S1048576x32 (![] : Fin 0 → Fin S1048576x32.rank)
  dot_S1048576x16_S16x128_S1048576x128_1_0_0_1_n_n_wf : DotDims.WF S1048576x16 S16x128 S1048576x128 [1] [0] [0] [1] [] []
  dot_S1048576x32_S32x128_S1048576x128_1_0_0_1_n_n_wf : DotDims.WF S1048576x32 S32x128 S1048576x128 [1] [0] [0] [1] [] []

variable [Facts₀]

def dot_S1048576x16_S16x128_S1048576x128_1_0_0_1_n_n : DotDims S1048576x16 S16x128 S1048576x128 where
  lhsContracting := [1]
  rhsContracting := [0]
  lhsNonContracting := [0]
  rhsNonContracting := [1]
  lhsBatch := []
  rhsBatch := []
  wf := dot_S1048576x16_S16x128_S1048576x128_1_0_0_1_n_n_wf
def dot_S1048576x32_S32x128_S1048576x128_1_0_0_1_n_n : DotDims S1048576x32 S32x128 S1048576x128 where
  lhsContracting := [1]
  rhsContracting := [0]
  lhsNonContracting := [0]
  rhsNonContracting := [1]
  lhsBatch := []
  rhsBatch := []
  wf := dot_S1048576x32_S32x128_S1048576x128_1_0_0_1_n_n_wf

class Facts : Prop extends Facts₀ where

variable [Facts]
-- ==== Proof.Cell.lean ====
/-
  One step of a long short-term memory cell, as functions of extended reals.

  A row of the input (16 numbers) and a row of the hidden state (32 numbers) give 128 pre-activations, one per column `j`:
  `gate j = (∑ k, x k * Wx (k, j)) + (∑ k, h k * Wh (k, j)) + b j`. The 128 columns are four bands of 32: input gate, forget
  gate, candidate, output gate. With `σ` the logistic function, the new cell value in lane `q` is
  `σ (gate q) * tanh (gate (64 + q)) + σ (gate (32 + q)) * c`, and the new hidden value is
  `σ (gate (96 + q)) * tanh` of the new cell value. `cellC` and `cellH` apply this to every row of arrays with any number of rows (`rowwise`).
-/
import Idealize.ShloMosaic.Lib.ValueIdx
import Idealize.ShloMosaic.PureOps.Ideal

noncomputable section

open scoped BigOperators

namespace Cert.Cell

open Idealize.ShloMosaic Idealize.ShloMosaic.ValueIdx

/-- Column `o + q` of the 128 gate columns: lane `q` of the band that starts at `o`. -/
def col (o : Nat) (ho : o + 32 ≤ 128) (q : Fin 32) : Fin 128 := ⟨o + q.val, by have := q.isLt; omega⟩

theorem col_val (o : Nat) (ho : o + 32 ≤ 128) (q : Fin 32) : (col o ho q).val = o + q.val := rfl

/-- The pre-activation in column `j` from one row of the input and one row of the hidden state. -/
def gate (xr : Fin 16 → EReal) (hr : Fin 32 → EReal) (Wx : (⟨2, ![16, 128]⟩ : Shape).Idx → EReal)
    (Wh : (⟨2, ![32, 128]⟩ : Shape).Idx → EReal) (b : (⟨1, ![128]⟩ : Shape).Idx → EReal) (j : Fin 128) : EReal :=
  ((∑ k : Fin 16, xr k * Wx (ix2 k j)) + (∑ k : Fin 32, hr k * Wh (ix2 k j))) + b (ix1 j)

/-- The new cell value in lane `q`, from the row's pre-activations and the old cell value `cv`. -/
def cNext (xr : Fin 16 → EReal) (hr : Fin 32 → EReal) (cv : EReal) (Wx : (⟨2, ![16, 128]⟩ : Shape).Idx → EReal)
    (Wh : (⟨2, ![32, 128]⟩ : Shape).Idx → EReal) (b : (⟨1, ![128]⟩ : Shape).Idx → EReal) (q : Fin 32) : EReal :=
  Ideal.logistic (gate xr hr Wx Wh b (col 0 (by decide) q)) * Ideal.tanh (gate xr hr Wx Wh b (col 64 (by decide) q))
    + Ideal.logistic (gate xr hr Wx Wh b (col 32 (by decide) q)) * cv

/-- The new hidden value in lane `q`. -/
def hNext (xr : Fin 16 → EReal) (hr : Fin 32 → EReal) (cv : EReal) (Wx : (⟨2, ![16, 128]⟩ : Shape).Idx → EReal)
    (Wh : (⟨2, ![32, 128]⟩ : Shape).Idx → EReal) (b : (⟨1, ![128]⟩ : Shape).Idx → EReal) (q : Fin 32) : EReal :=
  Ideal.logistic (gate xr hr Wx Wh b (col 96 (by decide) q)) * Ideal.tanh (cNext xr hr cv Wx Wh b q)

variable {N : Nat}

/-- A map applied row by row: entry `(p, q)` of the result is `f` of row `p` of `x`, row `p` of `h`, the entry
    `(p, q)` of `c`, and the lane `q`. -/
def rowwise (f : (Fin 16 → EReal) → (Fin 32 → EReal) → EReal → Fin 32 → EReal)
    (x : (⟨2, ![N, 16]⟩ : Shape).Idx → EReal) (h c : (⟨2, ![N, 32]⟩ : Shape).Idx → EReal) :
    (⟨2, ![N, 32]⟩ : Shape).Idx → EReal :=
  fun i => f (fun k => x (ix2 (i 0) k)) (fun k => h (ix2 (i 0) k)) (c i) (i 1)

theorem rowwise_apply (f : (Fin 16 → EReal) → (Fin 32 → EReal) → EReal → Fin 32 → EReal)
    (x : (⟨2, ![N, 16]⟩ : Shape).Idx → EReal) (h c : (⟨2, ![N, 32]⟩ : Shape).Idx → EReal) (p : Fin N) (q : Fin 32) :
    rowwise f x h c (ix2 p q) = f (fun k => x (ix2 p k)) (fun k => h (ix2 p k)) (c (ix2 p q)) q := rfl

/-- The new cell state of every row. -/
def cellC (x : (⟨2, ![N, 16]⟩ : Shape).Idx → EReal) (h c : (⟨2, ![N, 32]⟩ : Shape).Idx → EReal)
    (Wx : (⟨2, ![16, 128]⟩ : Shape).Idx → EReal) (Wh : (⟨2, ![32, 128]⟩ : Shape).Idx → EReal)
    (b : (⟨1, ![128]⟩ : Shape).Idx → EReal) : (⟨2, ![N, 32]⟩ : Shape).Idx → EReal :=
  rowwise (fun xr hr cv q => cNext xr hr cv Wx Wh b q) x h c

/-- The new hidden state of every row. -/
def cellH (x : (⟨2, ![N, 16]⟩ : Shape).Idx → EReal) (h c : (⟨2, ![N, 32]⟩ : Shape).Idx → EReal)
    (Wx : (⟨2, ![16, 128]⟩ : Shape).Idx → EReal) (Wh : (⟨2, ![32, 128]⟩ : Shape).Idx → EReal)
    (b : (⟨1, ![128]⟩ : Shape).Idx → EReal) : (⟨2, ![N, 32]⟩ : Shape).Idx → EReal :=
  rowwise (fun xr hr cv q => hNext xr hr cv Wx Wh b q) x h c

theorem cellC_apply (x : (⟨2, ![N, 16]⟩ : Shape).Idx → EReal) (h c : (⟨2, ![N, 32]⟩ : Shape).Idx → EReal)
    (Wx : (⟨2, ![16, 128]⟩ : Shape).Idx → EReal) (Wh : (⟨2, ![32, 128]⟩ : Shape).Idx → EReal)
    (b : (⟨1, ![128]⟩ : Shape).Idx → EReal) (p : Fin N) (q : Fin 32) :
    cellC x h c Wx Wh b (ix2 p q) = cNext (fun k => x (ix2 p k)) (fun k => h (ix2 p k)) (c (ix2 p q)) Wx Wh b q := rfl

theorem cellH_apply (x : (⟨2, ![N, 16]⟩ : Shape).Idx → EReal) (h c : (⟨2, ![N, 32]⟩ : Shape).Idx → EReal)
    (Wx : (⟨2, ![16, 128]⟩ : Shape).Idx → EReal) (Wh : (⟨2, ![32, 128]⟩ : Shape).Idx → EReal)
    (b : (⟨1, ![128]⟩ : Shape).Idx → EReal) (p : Fin N) (q : Fin 32) :
    cellH x h c Wx Wh b (ix2 p q) = hNext (fun k => x (ix2 p k)) (fun k => h (ix2 p k)) (c (ix2 p q)) Wx Wh b q := rfl

end Cert.Cell

end
-- ==== Proof.RefCell.lean ====
/-
  The reference program's two results, read as the cell step of `Cell.lean` applied to every row of the argument arrays.

  The reference multiplies the whole input and hidden arrays into the weight matrices, adds the two products and the bias
  row repeated over the rows, cuts the four bands of 32 columns, and spells the logistic function as `1 / (1 + exp (-z))`,
  which is the logistic function of the extended reals by definition once the float word of one is read as the number one.
-/
import proofs.«167265_j35304631173361_2_alg».proof.Proof.Gen.ReferenceIdeal.Read
import proofs.«167265_j35304631173361_2_alg».proof.Proof.Cell

noncomputable section

open scoped BigOperators

namespace Cert.ReferenceIdeal.Spec

open Idealize.ShloMosaic Idealize.ShloMosaic.ValueIdx Cert.ReferenceIdeal Cert.ReferenceIdeal.Read Cert.Cell

/-- The float word `0x3F800000` is the number one. -/
theorem word_one : Ideal.ofBits .f32 0x3F800000#32 = 1 := by
  simp [Ideal.ofBits, Ideal.ieee, -EReal.coe_mul]; norm_num

/-- `1 / (1 + exp (-z))` in the host's spelling, with the word of one, is the logistic function. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [word_one]
  rfl

variable (x0 : (⟨S1048576x16, .f32⟩ : BufTy).Contents (Elt Ideal)) (x1 x2 : (⟨S1048576x32, .f32⟩ : BufTy).Contents (Elt Ideal))
  (x3 : (⟨S16x128, .f32⟩ : BufTy).Contents (Elt Ideal)) (x4 : (⟨S32x128, .f32⟩ : BufTy).Contents (Elt Ideal))
  (x5 : (⟨S128, .f32⟩ : BufTy).Contents (Elt Ideal))

/-- The pre-activations of all rows: entry `(p, j)` is the gate of row `p` in column `j`. -/
theorem gate_apply (p : Fin 1048576) (j : Fin 128) :
    val_main_v5 (F := Ideal) x0 x1 x3 x4 x5 (ix2 p j) = gate (fun k => x0 (ix2 p k)) (fun k => x1 (ix2 p k)) x3 x4 x5 j := by
  have e0l : ∀ k, lidx_main_v0 (ix2 p j) k = ix2 p k := fun k => funext fun a => Fin.ext (by
    match a with | ⟨0, _⟩ => rfl | ⟨1, _⟩ => rfl)
  have e0r : ∀ k, ridx_main_v0 (ix2 p j) k = ix2 k j := fun k => funext fun a => Fin.ext (by
    match a with | ⟨0, _⟩ => rfl | ⟨1, _⟩ => rfl)
  have e1l : ∀ k, lidx_main_v1 (ix2 p j) k = ix2 p k := fun k => funext fun a => Fin.ext (by
    match a with | ⟨0, _⟩ => rfl | ⟨1, _⟩ => rfl)
  have e1r : ∀ k, ridx_main_v1 (ix2 p j) k = ix2 k j := fun k => funext fun a => Fin.ext (by
    match a with | ⟨0, _⟩ => rfl | ⟨1, _⟩ => rfl)
  have eb : idx_main_v3 (idx_main_v4 (ix2 p j)) = ix1 j := funext fun a => Fin.ext (by
    match a with | ⟨0, _⟩ => rfl)
  rw [val_main_v5_apply, val_main_v2_apply, val_main_v0_apply, val_main_v1_apply, val_main_v4_apply, val_main_v3_apply]
  simp only [e0l, e0r, e1l, e1r, eb]
  rfl

theorem band0 (p : Fin 1048576) (q : Fin 32) : val_main_v6 (F := Ideal) x0 x1 x3 x4 x5 (ix2 p q)
    = gate (fun k => x0 (ix2 p k)) (fun k => x1 (ix2 p k)) x3 x4 x5 (col 0 (by decide) q) := by
  have e : idx_main_v6 (ix2 p q) = ix2 p (col 0 (by decide) q) := funext fun a => Fin.ext (by
    match a with | ⟨0, _⟩ => rfl | ⟨1, _⟩ => exact (Nat.zero_add _).symm)
  rw [val_main_v6_apply, e, gate_apply]

theorem band32 (p : Fin 1048576) (q : Fin 32) : val_main_v7 (F := Ideal) x0 x1 x3 x4 x5 (ix2 p q)
    = gate (fun k => x0 (ix2 p k)) (fun k => x1 (ix2 p k)) x3 x4 x5 (col 32 (by decide) q) := by
  have e : idx_main_v7 (ix2 p q) = ix2 p (col 32 (by decide) q) := funext fun a => Fin.ext (by
    match a with | ⟨0, _⟩ => rfl | ⟨1, _⟩ => rfl)
  rw [val_main_v7_apply, e, gate_apply]

theorem band64 (p : Fin 1048576) (q : Fin 32) : val_main_v8 (F := Ideal) x0 x1 x3 x4 x5 (ix2 p q)
    = gate (fun k => x0 (ix2 p k)) (fun k => x1 (ix2 p k)) x3 x4 x5 (col 64 (by decide) q) := by
  have e : idx_main_v8 (ix2 p q) = ix2 p (col 64 (by decide) q) := funext fun a => Fin.ext (by
    match a with | ⟨0, _⟩ => rfl | ⟨1, _⟩ => rfl)
  rw [val_main_v8_apply, e, gate_apply]

theorem band96 (p : Fin 1048576) (q : Fin 32) : val_main_v9 (F := Ideal) x0 x1 x3 x4 x5 (ix2 p q)
    = gate (fun k => x0 (ix2 p k)) (fun k => x1 (ix2 p k)) x3 x4 x5 (col 96 (by decide) q) := by
  have e : idx_main_v9 (ix2 p q) = ix2 p (col 96 (by decide) q) := funext fun a => Fin.ext (by
    match a with | ⟨0, _⟩ => rfl | ⟨1, _⟩ => rfl)
  rw [val_main_v9_apply, e, gate_apply]

/-- The input gate at `(p, q)`. -/
theorem inGate_apply (p : Fin 1048576) (q : Fin 32) : val_main_v15 (F := Ideal) x0 x1 x3 x4 x5 (ix2 p q)
    = Ideal.logistic (gate (fun k => x0 (ix2 p k)) (fun k => x1 (ix2 p k)) x3 x4 x5 (col 0 (by decide) q)) := by
  rw [val_main_v15_apply, val_main_v14_apply, val_main_cst_0_apply, val_main_v13_apply, val_main_v12_apply,
    val_main_cst_apply, val_main_v11_apply, val_main_v10_apply, band0]
  exact logistic_spelt _

/-- The forget gate at `(p, q)`. -/
theorem forgetGate_apply (p : Fin 1048576) (q : Fin 32) : val_main_v21 (F := Ideal) x0 x1 x3 x4 x5 (ix2 p q)
    = Ideal.logistic (gate (fun k => x0 (ix2 p k)) (fun k => x1 (ix2 p k)) x3 x4 x5 (col 32 (by decide) q)) := by
  rw [val_main_v21_apply, val_main_v20_apply, val_main_cst_2_apply, val_main_v19_apply, val_main_v18_apply,
    val_main_cst_1_apply, val_main_v17_apply, val_main_v16_apply, band32]
  exact logistic_spelt _

/-- The output gate at `(p, q)`. -/
theorem outGate_apply (p : Fin 1048576) (q : Fin 32) : val_main_v28 (F := Ideal) x0 x1 x3 x4 x5 (ix2 p q)
    = Ideal.logistic (gate (fun k => x0 (ix2 p k)) (fun k => x1 (ix2 p k)) x3 x4 x5 (col 96 (by decide) q)) := by
  rw [val_main_v28_apply, val_main_v27_apply, val_main_cst_4_apply, val_main_v26_apply, val_main_v25_apply,
    val_main_cst_3_apply, val_main_v24_apply, val_main_v23_apply, band96]
  exact logistic_spelt _

/-- The reference's second result is the new cell state of every row. -/
theorem cell_eq : val_main_v31 (F := Ideal) x0 x1 x2 x3 x4 x5 = cellC x0 x1 x2 x3 x4 x5 := by
  funext i
  obtain ⟨p, q, rfl⟩ : ∃ (p : Fin 1048576) (q : Fin 32), i = ix2 p q := ⟨i 0, i 1, eq_ix2 i⟩
  rw [cellC_apply, val_main_v31_apply, val_main_v29_apply, val_main_v30_apply, val_main_v22_apply, inGate_apply,
    forgetGate_apply, band64]
  rfl

/-- The reference's first result is the new hidden state of every row. -/
theorem hidden_eq : val_main_v33 (F := Ideal) x0 x1 x2 x3 x4 x5 = cellH x0 x1 x2 x3 x4 x5 := by
  funext i
  obtain ⟨p, q, rfl⟩ : ∃ (p : Fin 1048576) (q : Fin 32), i = ix2 p q := ⟨i 0, i 1, eq_ix2 i⟩
  rw [cellH_apply, val_main_v33_apply, val_main_v32_apply, outGate_apply, congrFun (cell_eq x0 x1 x2 x3 x4 x5) (ix2 p q),
    cellC_apply]
  rfl

end Cert.ReferenceIdeal.Spec

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.KerCell.lean ====
/-
  What the kernel body computes on one tile of 4096 rows, read as the cell step of `Cell.lean`.

  The body multiplies the tile's input rows and hidden rows into the two weight matrices (each product accumulated from
  zero, the operands' narrowing to a shorter float format being the identity on extended reals), adds the two products and
  the bias row repeated over the rows, cuts the four bands of 32 columns, and combines them with the old cell values. The
  old cell values arrive folded four rows to a row of 128 and are unfolded first; both results are folded the same way
  before they are stored.
-/
import proofs.«167265_j35304631173361_2_alg».proof.Proof.Gen.KernelIdeal.Skeleton
import proofs.«167265_j35304631173361_2_alg».proof.Proof.Cell
import proofs.«167265_j35304631173361_2_alg».proof.Proof.LibDot
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.Cell

theorem plain16 : LibDot.IsPlain dot_S4096x16_S16x128_S4096x128_1_0_0_1_n_n := ⟨rfl, rfl, rfl, rfl, rfl, rfl⟩
theorem plain32 : LibDot.IsPlain dot_S4096x32_S32x128_S4096x128_1_0_0_1_n_n := ⟨rfl, rfl, rfl, rfl, rfl, rfl⟩

/-- The tile's pre-activations: entry `(p, j)` is the gate of row `p` in column `j`. -/
theorem pay1_apply (v0 : Vec Ideal S4096x16 .f32) (v2 : Vec Ideal S4096x32 .f32) (v4 : Vec Ideal S16x128 .bf16)
    (v6 : Vec Ideal S32x128 .bf16) (v11 : Vec Ideal S128 .f32) (p : Fin 4096) (j : Fin 128) :
    k0_pay1 (F := Ideal) v0 v2 v4 v6 v11 (ix2 p j) = gate (fun k => v0 (ix2 p k)) (fun k => v2 (ix2 p k)) v4 v6 v11 j := by
  unfold k0_pay1 gate
  refine congrArg₂ (· + ·) (congrArg₂ (· + ·) ?_ ?_) ?_
  · exact (LibDot.matmul_zero_apply _ plain16 none _ _ p j).trans
      (Finset.sum_congr rfl fun k _ => by rw [shapeCast_self]; rfl)
  · exact (LibDot.matmul_zero_apply _ plain32 none _ _ p j).trans
      (Finset.sum_congr rfl fun k _ => by rw [shapeCast_self]; rfl)
  · exact (broadcastTo_1b_ab_apply _ _ p j).trans (shapeCast_a_1a_apply v11 _ 0 j)

/-- A band of 32 columns of the pre-activations, at `(p, q)`: the gate of row `p` in column `o + q`. -/
theorem band_apply (o : Nat) (ho : o + 32 ≤ 128) (hs : S4096x128.Slices ![0, o] S4096x32)
    (v0 : Vec Ideal S4096x16 .f32) (v2 : Vec Ideal S4096x32 .f32) (v4 : Vec Ideal S16x128 .bf16)
    (v6 : Vec Ideal S32x128 .bf16) (v11 : Vec Ideal S128 .f32) (p : Fin 4096) (q : Fin 32) :
    extractStridedSlice S4096x32 ![0, o] (k0_pay1 (F := Ideal) v0 v2 v4 v6 v11) hs (ix2 p q)
      = gate (fun k => v0 (ix2 p k)) (fun k => v2 (ix2 p k)) v4 v6 v11 (col o ho q) :=
  (slice2_axis1_apply o _ hs p q (col o ho q) rfl).trans (pay1_apply v0 v2 v4 v6 v11 p (col o ho q))

/-- The tile's new cell values: the cell step on the tile's rows, the old cell values unfolded to rows of 32. -/
theorem pay2_eq (v0 : Vec Ideal S4096x16 .f32) (v2 : Vec Ideal S4096x32 .f32) (v4 : Vec Ideal S16x128 .bf16)
    (v6 : Vec Ideal S32x128 .bf16) (v11 : Vec Ideal S128 .f32) (v23 : Vec Ideal S1024x128 .f32) :
    k0_pay2 (F := Ideal) v0 v2 v4 v6 v11 v23
      = cellC v0 v2 (shapeCast S4096x32 v23 Facts₀.shapeCasts_S1024x128_S4096x32) v4 v6 v11 := by
  funext i
  obtain ⟨p, q, rfl⟩ : ∃ (p : Fin 4096) (q : Fin 32), i = ix2 p q := ⟨i 0, i 1, eq_ix2 i⟩
  rw [cellC_apply]
  unfold k0_pay2 cNext
  refine congrArg₂ (· + ·) (congrArg₂ (· * ·) (congrArg Ideal.logistic ?_) (congrArg Ideal.tanh ?_))
    (congrArg₂ (· * ·) (congrArg Ideal.logistic ?_) ?_)
  · exact band_apply 0 _ _ v0 v2 v4 v6 v11 p q
  · exact band_apply 64 _ _ v0 v2 v4 v6 v11 p q
  · exact band_apply 32 _ _ v0 v2 v4 v6 v11 p q
  · rw [shapeCast_self]

/-- The tile's new hidden values, before they are folded for the store. -/
theorem hidden_eq (v0 : Vec Ideal S4096x16 .f32) (v2 : Vec Ideal S4096x32 .f32) (v4 : Vec Ideal S16x128 .bf16)
    (v6 : Vec Ideal S32x128 .bf16) (v11 : Vec Ideal S128 .f32) (v23 : Vec Ideal S1024x128 .f32) :
    mulf (logistic (extractStridedSlice S4096x32 ![0, 96] (k0_pay1 (F := Ideal) v0 v2 v4 v6 v11) Facts₀.slices_S4096x128_o0_96_S4096x32))
        (tanh (k0_pay2 (F := Ideal) v0 v2 v4 v6 v11 v23))
      = cellH v0 v2 (shapeCast S4096x32 v23 Facts₀.shapeCasts_S1024x128_S4096x32) v4 v6 v11 := by
  funext i
  obtain ⟨p, q, rfl⟩ : ∃ (p : Fin 4096) (q : Fin 32), i = ix2 p q := ⟨i 0, i 1, eq_ix2 i⟩
  rw [cellH_apply]
  unfold hNext
  refine congrArg₂ (· * ·) (congrArg Ideal.logistic ?_) (congrArg Ideal.tanh ?_)
  · exact band_apply 96 _ _ v0 v2 v4 v6 v11 p q
  · exact congrFun (pay2_eq v0 v2 v4 v6 v11 v23) (ix2 p q)

/-- What is stored to the first output tile: the new hidden values, four rows folded into one. -/
theorem pay3_eq (v0 : Vec Ideal S4096x16 .f32) (v2 : Vec Ideal S4096x32 .f32) (v4 : Vec Ideal S16x128 .bf16)
    (v6 : Vec Ideal S32x128 .bf16) (v11 : Vec Ideal S128 .f32) (v23 : Vec Ideal S1024x128 .f32) :
    k0_pay3 (F := Ideal) v0 v2 v4 v6 v11 v23
      = shapeCast S1024x128 (cellH v0 v2 (shapeCast S4096x32 v23 Facts₀.shapeCasts_S1024x128_S4096x32) v4 v6 v11)
          Facts₀.shapeCasts_S4096x32_S1024x128 := by
  unfold k0_pay3
  exact congrArg (fun z => shapeCast S1024x128 z Facts₀.shapeCasts_S4096x32_S1024x128) (hidden_eq v0 v2 v4 v6 v11 v23)

/-- What is stored to the second output tile: the new cell values, folded the same way. -/
theorem pay4_eq (v0 : Vec Ideal S4096x16 .f32) (v2 : Vec Ideal S4096x32 .f32) (v4 : Vec Ideal S16x128 .bf16)
    (v6 : Vec Ideal S32x128 .bf16) (v11 : Vec Ideal S128 .f32) (v23 : Vec Ideal S1024x128 .f32) :
    k0_pay4 (F := Ideal) v0 v2 v4 v6 v11 v23
      = shapeCast S1024x128 (cellC v0 v2 (shapeCast S4096x32 v23 Facts₀.shapeCasts_S1024x128_S4096x32) v4 v6 v11)
          Facts₀.shapeCasts_S4096x32_S1024x128 := by
  unfold k0_pay4
  exact congrArg (fun z => shapeCast S1024x128 z Facts₀.shapeCasts_S4096x32_S1024x128) (pay2_eq v0 v2 v4 v6 v11 v23)

end Cert.KernelIdeal.Body

end
-- ==== Proof.LibReshape2.lean ====
/-
  A reshape between two arrays of two axes with the same number of entries, read at an index. Row-major order numbers
  the entry `(r, l)` of an `[a', b']` array `r * b' + l`; the reshaped array holds there the operand's entry with the same
  number, that is `(p, q)` with `p * b + q = r * b' + l`. In particular folding four rows of width 32 into one row of
  width 128, and unfolding them again, are reshapes of this kind.
-/
import Idealize.ShloMosaic.Lib.ValueIdx
import Idealize.ShloMosaic.Lib.Pipeline.Value

noncomputable section

namespace Cert.LibReshape2

open Idealize.ShloMosaic Idealize.ShloMosaic.ValueIdx

variable {α : Type} {a b a' b' : Nat}

/-- The reshaped array at `(r, l)` is the operand at the entry `(p, q)` with the same row-major number. -/
theorem reshape2_apply (x : (⟨2, ![a, b]⟩ : Shape).Idx → α) (h : (⟨2, ![a, b]⟩ : Shape).ShapeCasts ⟨2, ![a', b']⟩)
    (r : Fin a') (l : Fin b') (p : Fin a) (q : Fin b) (e : p.val * b + q.val = r.val * b' + l.val) :
    shapeCast ⟨2, ![a', b']⟩ x h (ix2 r l) = x (ix2 p q) :=
  shapeCast_apply x h (ix2 r l) (ix2 p q) (by
    rw [Shape.rowMajor_val_two, Shape.rowMajor_val_two]
    exact e)

/-- The row of the narrow array that holds entry `(r, l)` of the wide one, when each wide row is `g` narrow rows of
    width `w`: row `g * r + l / w`. -/
theorem unfold_row_lt {R g w : Nat} (r : Fin R) (l : Fin (g * w)) (hw : 0 < w) : g * r.val + l.val / w < R * g := by
  have h1 : l.val / w < g := (Nat.div_lt_iff_lt_mul hw).2 l.isLt
  have h2 : r.val + 1 ≤ R := r.isLt
  calc g * r.val + l.val / w < g * r.val + g := by omega
    _ = g * (r.val + 1) := by ring
    _ ≤ g * R := Nat.mul_le_mul_left g h2
    _ = R * g := Nat.mul_comm g R

end Cert.LibReshape2

end
-- ==== Proof.TileFold.lean ====
/-
  A row-by-row map commutes with cutting a tile of rows and with folding four rows of width 32 into one row of width 128.

  The arrays have 1048576 rows; tile `t` (of 256) is rows `4096 t … 4096 t + 4095`. Folded, an array of 1048576 rows of 32
  is 262144 rows of 128, and tile `t` of the folded array is its rows `1024 t … 1024 t + 1023`. Entry `(r, l)` of a folded
  tile is entry `(4 r + l / 32, l % 32)` of the tile, because `(4 r + l / 32) * 32 + l % 32 = r * 128 + l`; the same
  arithmetic with `1024 t + r` for `r` gives row `4096 t + 4 r + l / 32` of the whole array. So: apply a row-by-row map
  to the tile's rows (the third operand unfolded first), fold the result, and you have the tile of the folded
  whole-array result.
-/
import proofs.«167265_j35304631173361_2_alg».proof.Proof.Cell
import proofs.«167265_j35304631173361_2_alg».proof.Proof.LibReshape2

noncomputable section

namespace Cert.TileFold

open Idealize.ShloMosaic Idealize.ShloMosaic.ValueIdx Cert.Cell Cert.LibReshape2

/-- The tile row that entry `(r, l)` of the folded tile comes from. -/
def rowOf (r : Fin 1024) (l : Fin 128) : Fin 4096 := ⟨4 * r.val + l.val / 32, by have := r.isLt; have := l.isLt; omega⟩
/-- Its lane. -/
def laneOf (l : Fin 128) : Fin 32 := ⟨l.val % 32, Nat.mod_lt _ (by decide)⟩

theorem fold_eq (r : Fin 1024) (l : Fin 128) : (rowOf r l).val * 32 + (laneOf l).val = r.val * 128 + l.val := by
  show (4 * r.val + l.val / 32) * 32 + l.val % 32 = r.val * 128 + l.val
  omega

/-- Row `4096 t + p` of the whole array. -/
def wholeRow (t : Nat) (ht : t < 256) (p : Fin 4096) : Fin 1048576 := ⟨4096 * t + p.val, by have := p.isLt; omega⟩
/-- Row `1024 t + r` of the folded whole array. -/
def foldedRow (t : Nat) (ht : t < 256) (r : Fin 1024) : Fin 262144 := ⟨1024 * t + r.val, by have := r.isLt; omega⟩

theorem whole_fold_eq (t : Nat) (ht : t < 256) (r : Fin 1024) (l : Fin 128) :
    (wholeRow t ht (rowOf r l)).val * 32 + (laneOf l).val = (foldedRow t ht r).val * 128 + l.val := by
  show (4096 * t + (4 * r.val + l.val / 32)) * 32 + l.val % 32 = (1024 * t + r.val) * 128 + l.val
  omega

theorem tile_rowwise (f : (Fin 16 → EReal) → (Fin 32 → EReal) → EReal → Fin 32 → EReal)
    (X : (⟨2, ![1048576, 16]⟩ : Shape).Idx → EReal) (Hh Cc : (⟨2, ![1048576, 32]⟩ : Shape).Idx → EReal)
    (x0 : (⟨2, ![4096, 16]⟩ : Shape).Idx → EReal) (x1 : (⟨2, ![4096, 32]⟩ : Shape).Idx → EReal)
    (x2 : (⟨2, ![1024, 128]⟩ : Shape).Idx → EReal)
    (hu : (⟨2, ![1024, 128]⟩ : Shape).ShapeCasts ⟨2, ![4096, 32]⟩)
    (hf : (⟨2, ![4096, 32]⟩ : Shape).ShapeCasts ⟨2, ![1024, 128]⟩)
    (hF : (⟨2, ![1048576, 32]⟩ : Shape).ShapeCasts ⟨2, ![262144, 128]⟩)
    (t : Nat) (ht : t < 256)
    (h0 : ∀ (p : Fin 4096) (k : Fin 16), x0 (ix2 p k) = X (ix2 (wholeRow t ht p) k))
    (h1 : ∀ (p : Fin 4096) (k : Fin 32), x1 (ix2 p k) = Hh (ix2 (wholeRow t ht p) k))
    (h2 : ∀ (r : Fin 1024) (l : Fin 128), x2 (ix2 r l) = shapeCast ⟨2, ![262144, 128]⟩ Cc hF (ix2 (foldedRow t ht r) l))
    (r : Fin 1024) (l : Fin 128) :
    shapeCast ⟨2, ![1024, 128]⟩ (rowwise f x0 x1 (shapeCast ⟨2, ![4096, 32]⟩ x2 hu)) hf (ix2 r l)
      = shapeCast ⟨2, ![262144, 128]⟩ (rowwise f X Hh Cc) hF (ix2 (foldedRow t ht r) l) := by
  have e1 := fold_eq r l
  have e2 := whole_fold_eq t ht r l
  refine (reshape2_apply _ hf r l (rowOf r l) (laneOf l) e1).trans ?_
  refine Eq.trans ?_ (reshape2_apply _ hF (foldedRow t ht r) l (wholeRow t ht (rowOf r l)) (laneOf l) e2).symm
  rw [rowwise_apply, rowwise_apply]
  have a0 : (fun k => x0 (ix2 (rowOf r l) k)) = fun k => X (ix2 (wholeRow t ht (rowOf r l)) k) := funext fun k => h0 _ k
  have a1 : (fun k => x1 (ix2 (rowOf r l) k)) = fun k => Hh (ix2 (wholeRow t ht (rowOf r l)) k) := funext fun k => h1 _ k
  have a2 : shapeCast ⟨2, ![4096, 32]⟩ x2 hu (ix2 (rowOf r l) (laneOf l)) = Cc (ix2 (wholeRow t ht (rowOf r l)) (laneOf l)) :=
    (reshape2_apply x2 hu (rowOf r l) (laneOf l) r l e1.symm).trans
      ((h2 r l).trans (reshape2_apply Cc hF (foldedRow t ht r) l (wholeRow t ht (rowOf r l)) (laneOf l) e2))
  rw [a0, a1, a2]

end Cert.TileFold

end
-- ==== Proof.Blocks.lean ====
/-
  The kernel's two result arrays after the run, as the cell step applied to every row of the arguments.

  The launch has 256 points. At point `t` the body sees rows `4096 t … 4096 t + 4095` of the input and of the hidden state,
  rows `1024 t … 1024 t + 1023` of the cell state folded four rows to a row of 128 (the fold is a host reshape before the
  launch), the two weight matrices whole (narrowed to a shorter float format by the host before the launch, which changes
  nothing on extended reals) and the bias whole, and writes rows `1024 t … 1024 t + 1023` of each folded result. These tiles
  cover the folded results, so each folded result is the fold of the cell step on all rows (`TileFold.tile_rowwise`); the
  host's reshapes after the launch unfold them again.
-/
import proofs.«167265_j35304631173361_2_alg».proof.Proof.Gen.KernelIdeal.Frame
import proofs.«167265_j35304631173361_2_alg».proof.Proof.KerCell
import proofs.«167265_j35304631173361_2_alg».proof.Proof.TileFold
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Cell Cert.TileFold

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- A point's number is below 256. -/
theorem tlt (t : Fin cfg0.N) : t.val < 256 := lt_of_lt_of_eq t.isLt N_0

/-- The index maps, decided over the grid: the row-tiled windows are at block `t`, the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The arrays the launch finds -/

/-- The folded cell state the host hands to the launch. -/
theorem V_folded (c : Dev nD) : (V m c main_v0 : S262144x128.Idx → EReal)
    = shapeCast S262144x128 (m ((c : Thread nD τ).loc main_arg2) : S1048576x32.Idx → EReal) Facts₀.shapeCasts_S1048576x32_S262144x128 := by
  show StableHlo.after hostOps0 (fun b => m (c, b)) (Proc.devRef .tc main_v0) = _
  after_results
  rfl

/-- The narrowed input weights are the input weights. -/
theorem V_wx (c : Dev nD) : (V m c main_v1 : S16x128.Idx → EReal) = (m ((c : Thread nD τ).loc main_arg3) : S16x128.Idx → EReal) := by
  show StableHlo.after hostOps0 (fun b => m (c, b)) (Proc.devRef .tc main_v1) = _
  after_results
  rfl

/-- The narrowed hidden weights are the hidden weights. -/
theorem V_wh (c : Dev nD) : (V m c main_v2 : S32x128.Idx → EReal) = (m ((c : Thread nD τ).loc main_arg4) : S32x128.Idx → EReal) := by
  show StableHlo.after hostOps0 (fun b => m (c, b)) (Proc.devRef .tc main_v2) = _
  after_results
  rfl

/-! ## Each input window's block at a point -/

/-- Input rows of tile `t`. -/
theorem iblk0_apply (c : Dev nD) (t : Fin cfg0.N) (p : Fin 4096) (k : Fin 16) :
    (iblk m c 0 t : S4096x16.Idx → EReal) (ix2 p k)
      = (m ((c : Thread nD τ).loc main_arg0) : S1048576x16.Idx → EReal) (ix2 (wholeRow t.val (tlt t) p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * p.val = 4096 * t.val + p.val; rw [e0]; omega
  | ⟨1, _⟩ => show win0_0.index t (1 : Fin 2) * 16 + 1 * k.val = k.val; rw [e1]; omega

/-- Hidden-state rows of tile `t`. -/
theorem iblk1_apply (c : Dev nD) (t : Fin cfg0.N) (p : Fin 4096) (k : Fin 32) :
    (iblk m c 1 t : S4096x32.Idx → EReal) (ix2 p k)
      = (m ((c : Thread nD τ).loc main_arg1) : S1048576x32.Idx → EReal) (ix2 (wholeRow t.val (tlt t) p) k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 4096 + 1 * p.val = 4096 * t.val + p.val; rw [e0]; omega
  | ⟨1, _⟩ => show win0_1.index t (1 : Fin 2) * 32 + 1 * k.val = k.val; rw [e1]; omega

/-- Folded cell-state rows of tile `t`. -/
theorem iblk2_apply (c : Dev nD) (t : Fin cfg0.N) (r : Fin 1024) (l : Fin 128) :
    (iblk m c 2 t : S1024x128.Idx → EReal) (ix2 r l)
      = shapeCast S262144x128 (m ((c : Thread nD τ).loc main_arg2) : S1048576x32.Idx → EReal)
          Facts₀.shapeCasts_S1048576x32_S262144x128 (ix2 (foldedRow t.val (tlt t) r) l) := by
  obtain ⟨-, -, -, -, e0, e1, -⟩ := idx_facts t
  unfold iblk
  rw [View.read_apply]
  show V m c main_v0 _ = _
  rw [V_folded]
  refine congrArg _ (funext fun a => Fin.ext ?_)
  match a with
  | ⟨0, _⟩ => show win0_2.index t (0 : Fin 2) * 1024 + 1 * r.val = 1024 * t.val + r.val; rw [e0]; omega
  | ⟨1, _⟩ => show win0_2.index t (1 : Fin 2) * 128 + 1 * l.val = l.val; rw [e1]; omega

/-- The input weights, whole at every point. -/
theorem iblk3_eq (c : Dev nD) (t : Fin cfg0.N) :
    (iblk m c 3 t : S16x128.Idx → EReal) = (m ((c : Thread nD τ).loc main_arg3) : S16x128.Idx → EReal) := by
  obtain ⟨-, -, -, -, -, -, e0, e1, -⟩ := idx_facts t
  funext y
  unfold iblk
  rw [View.read_apply]
  show V m c main_v1 _ = _
  rw [V_wx]
  refine congrArg _ (funext fun a => Fin.ext ?_)
  match a with
  | ⟨0, _⟩ => show win0_3.index t (0 : Fin 2) * 16 + 1 * (y 0).val = (y 0).val; rw [e0]; omega
  | ⟨1, _⟩ => show win0_3.index t (1 : Fin 2) * 128 + 1 * (y 1).val = (y 1).val; rw [e1]; omega

/-- The hidden weights, whole at every point. -/
theorem iblk4_eq (c : Dev nD) (t : Fin cfg0.N) :
    (iblk m c 4 t : S32x128.Idx → EReal) = (m ((c : Thread nD τ).loc main_arg4) : S32x128.Idx → EReal) := by
  obtain ⟨-, -, -, -, -, -, -, -, e0, e1, -⟩ := idx_facts t
  funext y
  unfold iblk
  rw [View.read_apply]
  show V m c main_v2 _ = _
  rw [V_wh]
  refine congrArg _ (funext fun a => Fin.ext ?_)
  match a with
  | ⟨0, _⟩ => show win0_4.index t (0 : Fin 2) * 32 + 1 * (y 0).val = (y 0).val; rw [e0]; omega
  | ⟨1, _⟩ => show win0_4.index t (1 : Fin 2) * 128 + 1 * (y 1).val = (y 1).val; rw [e1]; omega

/-- The bias, whole at every point. -/
theorem iblk5_eq (c : Dev nD) (t : Fin cfg0.N) :
    (iblk m c 5 t : S128.Idx → EReal) = (m ((c : Thread nD τ).loc main_arg5) : S128.Idx → EReal) := by
  obtain ⟨-, -, -, -, -, -, -, -, -, -, e0, -⟩ := idx_facts t
  funext y
  unfold iblk
  rw [View.read_apply]
  show V m c main_arg5 _ = _
  rw [V_main_arg5]
  refine congrArg _ (funext fun a => Fin.ext ?_)
  match a with
  | ⟨0, _⟩ => show win0_5.index t (0 : Fin 1) * 128 + 1 * (y 0).val = (y 0).val; rw [e0]; omega

/-! ## What a point writes back, and the arrays after the launch -/

/-- The new hidden state of every row, folded: what output window 6's array ends holding. -/
def foldedH (c : Dev nD) : S262144x128.Idx → EReal :=
  shapeCast S262144x128
    (cellH (m ((c : Thread nD τ).loc main_arg0) : S1048576x16.Idx → EReal) (m ((c : Thread nD τ).loc main_arg1) : S1048576x32.Idx → EReal)
      (m ((c : Thread nD τ).loc main_arg2) : S1048576x32.Idx → EReal) (m ((c : Thread nD τ).loc main_arg3) : S16x128.Idx → EReal)
      (m ((c : Thread nD τ).loc main_arg4) : S32x128.Idx → EReal) (m ((c : Thread nD τ).loc main_arg5) : S128.Idx → EReal))
    Facts₀.shapeCasts_S1048576x32_S262144x128

/-- The new cell state of every row, folded: what output window 7's array ends holding. -/
def foldedC (c : Dev nD) : S262144x128.Idx → EReal :=
  shapeCast S262144x128
    (cellC (m ((c : Thread nD τ).loc main_arg0) : S1048576x16.Idx → EReal) (m ((c : Thread nD τ).loc main_arg1) : S1048576x32.Idx → EReal)
      (m ((c : Thread nD τ).loc main_arg2) : S1048576x32.Idx → EReal) (m ((c : Thread nD τ).loc main_arg3) : S16x128.Idx → EReal)
      (m ((c : Thread nD τ).loc main_arg4) : S32x128.Idx → EReal) (m ((c : Thread nD τ).loc main_arg5) : S128.Idx → EReal))
    Facts₀.shapeCasts_S1048576x32_S262144x128

/-- Point `t` writes back rows `1024 t …` of the folded new hidden state. -/
theorem flushed6_eq (c : Dev nD) (t : Fin cfg0.N) :
    (dats m 0 c).flushed 6 t = ((cfg0.win 6).blk t).view.read (Elt Ideal) (foldedH m c) := by
  obtain ⟨-, -, -, -, -, -, -, -, -, -, -, e0, e1, -⟩ := idx_facts t
  show (cfg0.win 6).cut (grid0.coords t) ((dats m 0 c).after 6 t) = _
  rw [after0_6]
  unfold out0_6
  rw [View.canon_unit_zero hz]
  simp only [View.ld_unit_zero (S := S4096x16) hz, View.ld_unit_zero (S := S4096x32) hz, View.ld_unit_zero (S := S16x128) hz,
    View.ld_unit_zero (S := S32x128) hz, View.ld_unit_zero (S := S1024x128) hz, View.ld_unit_zero (S := S128) hz1]
  rw [Body.pay3_eq (iblk m c 0 t) (iblk m c 1 t) (iblk m c 3 t) (iblk m c 4 t) (iblk m c 5 t) (iblk m c 2 t)]
  refine funext fun (y : S1024x128.Idx) => ?_
  obtain ⟨r, l, rfl⟩ : ∃ (r : Fin 1024) (l : Fin 128), y = ix2 r l := ⟨y 0, y 1, eq_ix2 y⟩
  rw [iblk3_eq, iblk4_eq, iblk5_eq]
  refine (tile_rowwise _ _ _ _ (iblk m c 0 t) (iblk m c 1 t) (iblk m c 2 t) _ _ _ t.val (tlt t)
    (iblk0_apply m c t) (iblk1_apply m c t) (iblk2_apply m c t) r l).trans ?_
  rw [View.read_apply]
  refine congrArg (foldedH m c) (funext fun a => Fin.ext ?_)
  match a with
  | ⟨0, _⟩ => show 1024 * t.val + r.val = win0_6.index t (0 : Fin 2) * 1024 + 1 * r.val; rw [e0]; omega
  | ⟨1, _⟩ => show l.val = win0_6.index t (1 : Fin 2) * 128 + 1 * l.val; rw [e1]; omega

/-- Point `t` writes back rows `1024 t …` of the folded new cell state. -/
theorem flushed7_eq (c : Dev nD) (t : Fin cfg0.N) :
    (dats m 0 c).flushed 7 t = ((cfg0.win 7).blk t).view.read (Elt Ideal) (foldedC m c) := by
  obtain ⟨-, -, -, -, -, -, -, -, -, -, -, -, -, e0, e1⟩ := idx_facts t
  show (cfg0.win 7).cut (grid0.coords t) ((dats m 0 c).after 7 t) = _
  rw [after0_7]
  unfold out0_7
  rw [View.canon_unit_zero hz]
  simp only [View.ld_unit_zero (S := S4096x16) hz, View.ld_unit_zero (S := S4096x32) hz, View.ld_unit_zero (S := S16x128) hz,
    View.ld_unit_zero (S := S32x128) hz, View.ld_unit_zero (S := S1024x128) hz, View.ld_unit_zero (S := S128) hz1]
  rw [Body.pay4_eq (iblk m c 0 t) (iblk m c 1 t) (iblk m c 3 t) (iblk m c 4 t) (iblk m c 5 t) (iblk m c 2 t)]
  refine funext fun (y : S1024x128.Idx) => ?_
  obtain ⟨r, l, rfl⟩ : ∃ (r : Fin 1024) (l : Fin 128), y = ix2 r l := ⟨y 0, y 1, eq_ix2 y⟩
  rw [iblk3_eq, iblk4_eq, iblk5_eq]
  refine (tile_rowwise _ _ _ _ (iblk m c 0 t) (iblk m c 1 t) (iblk m c 2 t) _ _ _ t.val (tlt t)
    (iblk0_apply m c t) (iblk1_apply m c t) (iblk2_apply m c t) r l).trans ?_
  rw [View.read_apply]
  refine congrArg (foldedC m c) (funext fun a => Fin.ext ?_)
  match a with
  | ⟨0, _⟩ => show 1024 * t.val + r.val = win0_7.index t (0 : Fin 2) * 1024 + 1 * r.val; rw [e0]; omega
  | ⟨1, _⟩ => show l.val = win0_7.index t (1 : Fin 2) * 128 + 1 * l.val; rw [e1]; omega

/-- An index of the folded array is in point `t`'s tile iff each coordinate is in the tile's range. -/
theorem mem_blk6 (t : Fin cfg0.N) (i : S262144x128.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_v3_0).slice (win0_6.rect t)).set ↔ _
  rw [View.set_slice_whole, Rect.mem_set_unit]
  exact Iff.rfl

theorem mem_blk7 (t : Fin cfg0.N) (i : S262144x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v3_1).slice (win0_7.rect t)).set ↔ _
  rw [View.set_slice_whole, Rect.mem_set_unit]
  exact Iff.rfl

/-- The point whose tile holds row `i 0` of a folded array: `i 0 / 1024`. -/
def pointOf (i : S262144x128.Idx) : Fin cfg0.N :=
  ⟨(i 0).val / 1024, by
    have h : (i 0).val < 262144 := (i 0).isLt
    rw [show cfg0.N = 256 from N_0]; omega⟩

/-- The 256 tiles cover the folded new hidden state. -/
theorem cover6 (i : S262144x128.Idx) : ∃ t : Fin cfg0.N, (cfg0.win 6).flush t = true ∧ i ∈ ((cfg0.win 6).blk t).view.set := by
  have hi1 : (i 1).val < 128 := (i 1).isLt
  obtain ⟨-, -, -, -, -, -, -, -, -, -, -, e0, e1, -⟩ := idx_facts (pointOf i)
  refine ⟨pointOf i, flush0_6 _, ?_⟩
  rw [mem_blk6]
  intro a
  match a with
  | ⟨0, _⟩ =>
    show win0_6.index (pointOf i) (0 : Fin 2) * 1024 ≤ (i 0).val ∧ (i 0).val < win0_6.index (pointOf i) (0 : Fin 2) * 1024 + 1024
    rw [e0]
    show (i 0).val / 1024 * 1024 ≤ (i 0).val ∧ (i 0).val < (i 0).val / 1024 * 1024 + 1024
    omega
  | ⟨1, _⟩ =>
    show win0_6.index (pointOf i) (1 : Fin 2) * 128 ≤ (i 1).val ∧ (i 1).val < win0_6.index (pointOf i) (1 : Fin 2) * 128 + 128
    rw [e1]
    omega

/-- The 256 tiles cover the folded new cell state. -/
theorem cover7 (i : S262144x128.Idx) : ∃ t : Fin cfg0.N, (cfg0.win 7).flush t = true ∧ i ∈ ((cfg0.win 7).blk t).view.set := by
  have hi1 : (i 1).val < 128 := (i 1).isLt
  obtain ⟨-, -, -, -, -, -, -, -, -, -, -, -, -, e0, e1⟩ := idx_facts (pointOf i)
  refine ⟨pointOf i, flush0_7 _, ?_⟩
  rw [mem_blk7]
  intro a
  match a with
  | ⟨0, _⟩ =>
    show win0_7.index (pointOf i) (0 : Fin 2) * 1024 ≤ (i 0).val ∧ (i 0).val < win0_7.index (pointOf i) (0 : Fin 2) * 1024 + 1024
    rw [e0]
    show (i 0).val / 1024 * 1024 ≤ (i 0).val ∧ (i 0).val < (i 0).val / 1024 * 1024 + 1024
    omega
  | ⟨1, _⟩ =>
    show win0_7.index (pointOf i) (1 : Fin 2) * 128 ≤ (i 1).val ∧ (i 1).val < win0_7.index (pointOf i) (1 : Fin 2) * 128 + 128
    rw [e1]
    omega

/-- After the launch, output window 6's array is the folded new hidden state. -/
theorem final6 (c : Dev nD) : (dats m 0 c).arrAt 6 cfg0.N = foldedH m c :=
  (dats m 0 c).arrAt_eq_of_cover 6 (foldedH m c) (fun t _ => flushed6_eq m c t) cover6

/-- After the launch, output window 7's array is the folded new cell state. -/
theorem final7 (c : Dev nD) : (dats m 0 c).arrAt 7 cfg0.N = foldedC m c :=
  (dats m 0 c).arrAt_eq_of_cover 7 (foldedC m c) (fun t _ => flushed7_eq m c t) cover7

/-! ## The host's reshapes after the launch -/

/-- The first result: the folded new hidden state unfolded again is the new hidden state of every row. -/
theorem tail_h (c : Dev nD) : (Pipeline.afterTail₀ cfgs (dats m) 0 (V0 m) [hostOps1] c main_v4 : S1048576x32.Idx → EReal)
    = cellH (m ((c : Thread nD τ).loc main_arg0) : S1048576x16.Idx → EReal) (m ((c : Thread nD τ).loc main_arg1) : S1048576x32.Idx → EReal)
      (m ((c : Thread nD τ).loc main_arg2) : S1048576x32.Idx → EReal) (m ((c : Thread nD τ).loc main_arg3) : S16x128.Idx → EReal)
      (m ((c : Thread nD τ).loc main_arg4) : S32x128.Idx → EReal) (m ((c : Thread nD τ).loc main_arg5) : S128.Idx → EReal) := by
  have hw := (Pipeline.withArrays_arr spec0 launch0.win.arr_inj c (V0 m c) (fun w => (dats m 0 c).arrAt w (cfgs 0).N) 6).trans (final6 m c)
  unfold Pipeline.afterTail₀
  show StableHlo.after hostOps1 _ (Proc.devRef .tc main_v4) = _
  after_results
  refine Eq.trans ?_ (shapeCast_shapeCast _ Facts₀.shapeCasts_S1048576x32_S262144x128 Facts₀.shapeCasts_S262144x128_S1048576x32)
  exact congrArg (fun z : S262144x128.Idx → EReal => shapeCast S1048576x32 z Facts₀.shapeCasts_S262144x128_S1048576x32) hw

/-- The second result: the folded new cell state unfolded again is the new cell state of every row. -/
theorem tail_c (c : Dev nD) : (Pipeline.afterTail₀ cfgs (dats m) 0 (V0 m) [hostOps1] c main_v5 : S1048576x32.Idx → EReal)
    = cellC (m ((c : Thread nD τ).loc main_arg0) : S1048576x16.Idx → EReal) (m ((c : Thread nD τ).loc main_arg1) : S1048576x32.Idx → EReal)
      (m ((c : Thread nD τ).loc main_arg2) : S1048576x32.Idx → EReal) (m ((c : Thread nD τ).loc main_arg3) : S16x128.Idx → EReal)
      (m ((c : Thread nD τ).loc main_arg4) : S32x128.Idx → EReal) (m ((c : Thread nD τ).loc main_arg5) : S128.Idx → EReal) := by
  have hw := (Pipeline.withArrays_arr spec0 launch0.win.arr_inj c (V0 m c) (fun w => (dats m 0 c).arrAt w (cfgs 0).N) 7).trans (final7 m c)
  unfold Pipeline.afterTail₀
  show StableHlo.after hostOps1 _ (Proc.devRef .tc main_v5) = _
  after_results
  refine Eq.trans ?_ (shapeCast_shapeCast _ Facts₀.shapeCasts_S1048576x32_S262144x128 Facts₀.shapeCasts_S262144x128_S1048576x32)
  exact congrArg (fun z : S262144x128.Idx → EReal => shapeCast S1048576x32 z Facts₀.shapeCasts_S262144x128_S1048576x32) hw

/-! ## The run, read -/

/-- Every weakly fair execution of the kernel's program ends with the first result at the new hidden state of every row,
    the second at the new cell state of every row, and the six arguments as launched. -/
theorem run : θ_run defs (onTc (τ := τ) (main (F := Ideal))) ⟨m, fun _ => 0, ρ⟩ fun r => ∀ c : Dev nD,
      r.2.mem ((c.tc : Thread nD τ).loc main_v4)
        = cellH (m ((c : Thread nD τ).loc main_arg0) : S1048576x16.Idx → EReal) (m ((c : Thread nD τ).loc main_arg1) : S1048576x32.Idx → EReal)
            (m ((c : Thread nD τ).loc main_arg2) : S1048576x32.Idx → EReal) (m ((c : Thread nD τ).loc main_arg3) : S16x128.Idx → EReal)
            (m ((c : Thread nD τ).loc main_arg4) : S32x128.Idx → EReal) (m ((c : Thread nD τ).loc main_arg5) : S128.Idx → EReal)
      ∧ r.2.mem ((c.tc : Thread nD τ).loc main_v5)
        = cellC (m ((c : Thread nD τ).loc main_arg0) : S1048576x16.Idx → EReal) (m ((c : Thread nD τ).loc main_arg1) : S1048576x32.Idx → EReal)
            (m ((c : Thread nD τ).loc main_arg2) : S1048576x32.Idx → EReal) (m ((c : Thread nD τ).loc main_arg3) : S16x128.Idx → EReal)
            (m ((c : Thread nD τ).loc main_arg4) : S32x128.Idx → EReal) (m ((c : Thread nD τ).loc main_arg5) : S128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v4 (Pipeline.mem_restRefs_of main_v4 (by decide) (by decide))).trans (tail_h m c),
      ((h c).2 main_v5 (Pipeline.mem_restRefs_of main_v5 (by decide) (by decide))).trans (tail_c m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Arrays

end
-- ==== Proof.lean ====
/-
  A fused long short-term memory cell: the kernel against its plain reference, on extended reals.

  Both programs take an input `x` (1048576 rows of 16), a hidden state `h` and a cell state `c` (1048576 rows of 32), two
  weight matrices and a bias, and return the new hidden state and the new cell state. For every row the pre-activations
  are `x Wx + h Wh + b` (128 columns, four bands of 32: input gate, forget gate, candidate, output gate), the new cell
  value is `σ(i) * tanh(g) + σ(f) * c` and the new hidden value `σ(o) * tanh` of it (`Proof/Cell.lean`).

  The reference computes this on whole arrays, spelling the logistic function as `1 / (1 + exp (-z))`
  (`Proof/RefCell.lean`). The kernel computes it tile by tile, 4096 rows at a time, with the cell state and both results
  folded four rows to a row of 128 around the launch (`Proof/KerCell.lean` for the body, `Proof/TileFold.lean` for the
  tiles and the folding, `Proof/Blocks.lean` for the arrays after the run). Every row is computed with the same sums in
  the same order in both programs, so the two results are the same functions of the arguments and no finiteness of the
  inputs is used. No operation of the kernel changes when it is read on extended reals, so the kernel's idealization is
  its own text and that conjunct is trivial.
-/
import proofs.«167265_j35304631173361_2_alg».proof.Defs
import proofs.«167265_j35304631173361_2_alg».proof.Proof.Gen.Kernel
import proofs.«167265_j35304631173361_2_alg».proof.Proof.Gen.Kernel.Skeleton
import proofs.«167265_j35304631173361_2_alg».proof.Proof.Gen.Kernel.Launch
import proofs.«167265_j35304631173361_2_alg».proof.Proof.Gen.Kernel.Points
import proofs.«167265_j35304631173361_2_alg».proof.Proof.Gen.Kernel.Frame
import proofs.«167265_j35304631173361_2_alg».proof.Proof.Gen.KernelIdeal
import proofs.«167265_j35304631173361_2_alg».proof.Proof.Gen.KernelIdeal.Skeleton
import proofs.«167265_j35304631173361_2_alg».proof.Proof.Gen.KernelIdeal.Launch
import proofs.«167265_j35304631173361_2_alg».proof.Proof.Gen.KernelIdeal.Points
import proofs.«167265_j35304631173361_2_alg».proof.Proof.Gen.KernelIdeal.Frame
import proofs.«167265_j35304631173361_2_alg».proof.Proof.Gen.ReferenceIdeal
import proofs.«167265_j35304631173361_2_alg».proof.Proof.Gen.Pre_finite_inputs
import proofs.«167265_j35304631173361_2_alg».proof.Proof.Gen.ReferenceIdeal.Run
import proofs.«167265_j35304631173361_2_alg».proof.Proof.Gen.ReferenceIdeal.Read
import proofs.«167265_j35304631173361_2_alg».proof.Proof.RefCell
import proofs.«167265_j35304631173361_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of every row of the (agreeing) arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · refine ((Cert.ReferenceIdeal.Read.val_main_v33_eq _ _ _ _ _ _).trans (Cert.ReferenceIdeal.Spec.hidden_eq _ _ _ _ _ _)).trans ?_
    rw [a0, a1, a2, a3, a4, a5]
  · refine ((Cert.ReferenceIdeal.Read.val_main_v31_eq _ _ _ _ _ _).trans (Cert.ReferenceIdeal.Spec.cell_eq _ _ _ _ _ _)).trans ?_
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
